-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x128 : Shape := ⟨2, ![256, 128]⟩
abbrev S128 : Shape := ⟨1, ![128]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S256x128 .f32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x4096x256 .f32) (main_arg1 : FVec F S256x128 .f32) (main_arg2 : FVec F S128 .f32) (main_arg3 : FVec F S256x128 .f32) (main_arg4 : FVec F S128 .f32) (main_arg5 : FVec F S256x128 .f32) (main_arg6 : FVec F S128 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S4x4096x256 : Shape := ⟨3, ![4, 4096, 256]⟩
abbrev S256x128 : Shape := ⟨2, ![256, 128]⟩
abbrev S128 : Shape := ⟨1, ![128]⟩
abbrev S256x256 : Shape := ⟨2, ![256, 256]⟩
abbrev S256 : Shape := ⟨1, ![256]⟩
abbrev S1x256 : Shape := ⟨2, ![1, 256]⟩
abbrev S1x128 : Shape := ⟨2, ![1, 128]⟩
abbrev S4x4096x128 : Shape := ⟨3, ![4, 4096, 128]⟩
abbrev S1x4096x256 : Shape := ⟨3, ![1, 4096, 256]⟩
abbrev S1x256x128 : Shape := ⟨3, ![1, 256, 128]⟩
abbrev S4096x128 : Shape := ⟨2, ![4096, 128]⟩
abbrev S4096x256 : Shape := ⟨2, ![4096, 256]⟩
abbrev S1x256x256 : Shape := ⟨3, ![1, 256, 256]⟩
abbrev S256x4096 : Shape := ⟨2, ![256, 4096]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4x4096x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1x128, .f32⟩
  | .hbm, ⟨11, _⟩ => ⟨S4x4096x128, .f32⟩
  | .local _ .vmem, ⟨0, _⟩ => ⟨S1x4096x256, .f32⟩
  | .local _ .vmem, ⟨1, _⟩ => ⟨S1x4096x256, .f32⟩
  | .local _ .vmem, ⟨2, _⟩ => ⟨S256x128, .f32⟩
  | .local _ .vmem, ⟨3, _⟩ => ⟨S1x128, .f32⟩
  | .local _ .vmem, ⟨4, _⟩ => ⟨S256x256, .f32⟩
  | .local _ .vmem, ⟨5, _⟩ => ⟨S1x256, .f32⟩
  | .local _ .vmem, ⟨6, _⟩ => ⟨S1x256x128, .f32⟩
  | .local _ .vmem, ⟨7, _⟩ => ⟨S1x256x128, .f32⟩
  | .local _ .vmem, ⟨8, _⟩ => ⟨S4096x128, .bf16⟩
  | .local _ .vmem, ⟨9, _⟩ => ⟨S4096x128, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  concatenates_S256x128_S256x128_S256x256_d1 : Shape.Concatenates [S256x128, S256x128] S256x256 1
  concatenates_S128_S128_S256_d0 : Shape.Concatenates [S128, S128] S256 0
  shapeCasts_S256_S1x256 : S256.ShapeCasts S1x256
  shapeCasts_S128_S1x128 : S128.ShapeCasts S1x128
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  slices_S4096x256_o0_0_S4096x128 : S4096x256.Slices ![0, 0] S4096x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  slices_S4096x256_o0_128_S4096x128 : S4096x256.Slices ![0, 128] S4096x128
  h_S1x256x256 : 0 < S1x256x256.numel
  shapeCasts_S1x256x256_S256x256 : S1x256x256.ShapeCasts S256x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  reduces_S256x4096_S256 : S256x4096.Reduces [1] S256
  shapeCasts_S256_S256x1 : S256.ShapeCasts S256x1
  broadcasts_S256x1_S256x4096 : S256x1.Broadcasts S256x4096
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S4096x256_S256x256_S4096x256_1_0_0_1_n_n_wf : DotDims.WF S4096x256 S256x256 S4096x256 [1] [0] [0] [1] [] []
  dot_S256x256_S256x128_S256x128_1_0_0_1_n_n_wf : DotDims.WF S256x256 S256x128 S256x128 [1] [0] [0] [1] [] []
  dot_S256x128_S4096x128_S256x4096_1_1_0_0_n_n_wf : DotDims.WF S256x128 S4096x128 S256x4096 [1] [1] [0] [0] [] []
  dot_S256x4096_S4096x128_S256x128_1_0_0_1_n_n_wf : DotDims.WF S256x4096 S4096x128 S256x128 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x128.size a ≤ S4x4096x128.size a
  hwx0_5 : ∀ i : grid0.Coords, EltTy.bits .f32 = 32 ∨ (Rect.block (s := S4x4096x128) S1x256x128.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S4096x128_S256x4096_1_1_0_0_n_n : DotDims S256x128 S4096x128 S256x4096 where
  lhsContracting := [1]
  rhsContracting := [1]
  lhsNonContracting := [0]
  rhsNonContracting := [0]
  lhsBatch := []
  rhsBatch := []
  wf := dot_S256x128_S4096x128_S256x4096_1_1_0_0_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x128 : Shape := ⟨2, ![256, 128]⟩
abbrev S128 : Shape := ⟨1, ![128]⟩
abbrev S4x4096x128 : Shape := ⟨3, ![4, 4096, 128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x128, .f32⟩
  | .hbm, ⟨2, _⟩ => ⟨S128, .f32⟩
  | .hbm, ⟨3, _⟩ => ⟨S256x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S1x1x128, .f32⟩
  | .hbm, ⟨17, _⟩ => ⟨S4x4096x128, .f32⟩
  | .hbm, ⟨18, _⟩ => ⟨S4x4096x128, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x128, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x128_S4x4096x128_2_0_01_1_n_n_wf : DotDims.WF S4x4096x256 S256x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x256_S256x128_S4x4096x128_2_0_01_1_n_n : DotDims S4x4096x256 S256x128 S4x4096x128 where
  lhsContracting := [2]
  rhsContracting := [0]
  lhsNonContracting := [0, 1]
  rhsNonContracting := [1]
  lhsBatch := []
  rhsBatch := []
  wf := dot_S4x4096x256_S256x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.Spec.lean ====
/-
  Single-head self-attention over the extended reals, index by index: the function both programs compute.

  For a batch `b`, every row `n` of `x[b]` is projected three times, `row · W + bias`, into a query, a key and a
  value row of 128 features. The score of query row `n` against key row `j` is their dot product (no scaling); a
  row of scores is turned into weights `exp (s − m)` with `m` the largest score of the row (taken from −∞), and the
  result row is the weighted sum of the value rows with each weight divided by the row's total weight.
  No law of arithmetic is used anywhere: the two programs spell this one expression.
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- What a row's maximum starts from: the single-precision pattern of −∞, read as an extended real. It is the same
    word in both programs and is never evaluated. -/
abbrev floor : EReal := Ideal.ofBits .f32 0xFF800000#32

/-- One row times a 256 × 128 matrix, plus a bias row. -/
def lin (xr : Fin 256 → EReal) (W : Fin 256 → Fin 128 → EReal) (bias : Fin 128 → EReal) (h : Fin 128) : EReal :=
  (∑ d : Fin 256, xr d * W d h) + bias h

/-- The score of a query row against key row `j`. -/
def score (q : Fin 128 → EReal) (k : Fin 4096 → Fin 128 → EReal) (j : Fin 4096) : EReal :=
  ∑ e : Fin 128, q e * k j e

/-- The largest score of the row, from −∞. -/
def top (q : Fin 128 → EReal) (k : Fin 4096 → Fin 128 → EReal) : EReal :=
  (Finset.univ : Finset (Fin 4096)).fold max floor (score q k)

/-- The unnormalised weight of key row `j`. -/
def weight (q : Fin 128 → EReal) (k : Fin 4096 → Fin 128 → EReal) (j : Fin 4096) : EReal :=
  Ideal.exp (score q k j - top q k)

/-- The attended row: value rows weighted by `weight / total weight`. -/
def attend (q : Fin 128 → EReal) (k v : Fin 4096 → Fin 128 → EReal) (h : Fin 128) : EReal :=
  ∑ j : Fin 4096, Ideal.div (weight q k j) (∑ j' : Fin 4096, weight q k j') * v j h

/-- The maximum taken from −∞ is at least −∞, so taking the larger of −∞ and it changes nothing. -/
theorem floor_max_top (q : Fin 128 → EReal) (k : Fin 4096 → Fin 128 → EReal) : max floor (top q k) = top q k :=
  max_eq_right ((Finset.le_fold_max _).mpr (Or.inl le_rfl))

/-- Row `n` of batch `b` of `x`, projected by `W` and `bias`. -/
def proj (x : (⟨3, ![4, 4096, 256]⟩ : Shape).Idx → EReal) (W : (⟨2, ![256, 128]⟩ : Shape).Idx → EReal)
    (bias : (⟨1, ![128]⟩ : Shape).Idx → EReal) (b : Fin 4) (n : Fin 4096) : Fin 128 → EReal :=
  lin (fun d => x (ix3 b n d)) (fun d h => W (ix2 d h)) (fun h => bias (ix1 h))

/-- The whole result: entry `(b, n, h)` attends query row `n` of batch `b` over that batch's keys and values. -/
def attention (x : (⟨3, ![4, 4096, 256]⟩ : Shape).Idx → EReal)
    (Wq : (⟨2, ![256, 128]⟩ : Shape).Idx → EReal) (bq : (⟨1, ![128]⟩ : Shape).Idx → EReal)
    (Wk : (⟨2, ![256, 128]⟩ : Shape).Idx → EReal) (bk : (⟨1, ![128]⟩ : Shape).Idx → EReal)
    (Wv : (⟨2, ![256, 128]⟩ : Shape).Idx → EReal) (bv : (⟨1, ![128]⟩ : Shape).Idx → EReal) :
    (⟨3, ![4, 4096, 128]⟩ : Shape).Idx → EReal := fun i =>
  attend (proj x Wq bq (i 0) (i 1)) (proj x Wk bk (i 0)) (proj x Wv bv (i 0)) (i 2)

theorem attention_apply (x : (⟨3, ![4, 4096, 256]⟩ : Shape).Idx → EReal)
    (Wq : (⟨2, ![256, 128]⟩ : Shape).Idx → EReal) (bq : (⟨1, ![128]⟩ : Shape).Idx → EReal)
    (Wk : (⟨2, ![256, 128]⟩ : Shape).Idx → EReal) (bk : (⟨1, ![128]⟩ : Shape).Idx → EReal)
    (Wv : (⟨2, ![256, 128]⟩ : Shape).Idx → EReal) (bv : (⟨1, ![128]⟩ : Shape).Idx → EReal)
    (b : Fin 4) (n : Fin 4096) (h : Fin 128) :
    attention x Wq bq Wk bk Wv bv (ix3 b n h) = attend (proj x Wq bq b n) (proj x Wk bk b) (proj x Wv bv b) h := rfl

end Cert.AttnSpec

end
-- ==== Proof.RefAttn.lean ====
/-
  The reference, read one operation at a time, is the specification.

  Its three projections are `row · W + bias` with the bias broadcast along batch and row; its scores contract the
  feature axis batch by batch; its softmax takes the row maximum from −∞ (and once more the larger of −∞ and that,
  which changes nothing), exponentiates the differences, sums them from 0 and divides; its last contraction weights
  the value rows. Each lemma below identifies one stage, at an index written by coordinates, with the corresponding
  function of the specification.
-/
import proofs.«117224_j15556371546452_2_alg».proof.Proof.Gen.ReferenceIdeal.Read
import proofs.«117224_j15556371546452_2_alg».proof.Proof.Spec

noncomputable section

namespace Cert.ReferenceIdeal.RefAttn

open Cert.ReferenceIdeal Cert.ReferenceIdeal.Gen Cert.ReferenceIdeal.Read Idealize.ShloMosaic Idealize.ShloMosaic.ValueIdx Cert.AttnSpec

theorem lidx_0 (b : Fin 4) (n : Fin 4096) (e : Fin 128) (k : Fin 256) : lidx_main_v0 (ix3 b n e) k = ix3 b n k := funext fun a => Fin.ext (by match a with | ⟨0, _⟩ => rfl | ⟨1, _⟩ => rfl | ⟨2, _⟩ => rfl)
theorem ridx_0 (b : Fin 4) (n : Fin 4096) (e : Fin 128) (k : Fin 256) : ridx_main_v0 (ix3 b n e) k = ix2 k e := funext fun a => Fin.ext (by match a with | ⟨0, _⟩ => rfl | ⟨1, _⟩ => rfl)
theorem bidx_0 (b : Fin 4) (n : Fin 4096) (e : Fin 128) : idx_main_v1 (idx_main_v2 (ix3 b n e)) = ix1 e := funext fun a => Fin.ext (by match a with | ⟨0, _⟩ => rfl)

/-- The reference's query rows are the projected rows. -/
theorem query_apply (x0 : (⟨S4x4096x256, .f32⟩ : BufTy).Contents (Elt Ideal)) (x1 : (⟨S256x128, .f32⟩ : BufTy).Contents (Elt Ideal)) (x2 : (⟨S128, .f32⟩ : BufTy).Contents (Elt Ideal))
    (b : Fin 4) (n : Fin 4096) (e : Fin 128) :
    val_main_v3 (F := Ideal) x0 x1 x2 (ix3 b n e) = proj x0 x1 x2 b n e := by
  rw [val_main_v3_apply, val_main_v0_apply, val_main_v2_apply, val_main_v1_apply]
  simp only [lidx_0, ridx_0, bidx_0]
  rfl

theorem lidx_4 (b : Fin 4) (n : Fin 4096) (e : Fin 128) (k : Fin 256) : lidx_main_v4 (ix3 b n e) k = ix3 b n k := funext fun a => Fin.ext (by match a with | ⟨0, _⟩ => rfl | ⟨1, _⟩ => rfl | ⟨2, _⟩ => rfl)
theorem ridx_4 (b : Fin 4) (n : Fin 4096) (e : Fin 128) (k : Fin 256) : ridx_main_v4 (ix3 b n e) k = ix2 k e := funext fun a => Fin.ext (by match a with | ⟨0, _⟩ => rfl | ⟨1, _⟩ => rfl)
theorem bidx_4 (b : Fin 4) (n : Fin 4096) (e : Fin 128) : idx_main_v5 (idx_main_v6 (ix3 b n e)) = ix1 e := funext fun a => Fin.ext (by match a with | ⟨0, _⟩ => rfl)

/-- The reference's key rows are the projected rows. -/
theorem key_apply (x0 : (⟨S4x4096x256, .f32⟩ : BufTy).Contents (Elt Ideal)) (x3 : (⟨S256x128, .f32⟩ : BufTy).Contents (Elt Ideal)) (x4 : (⟨S128, .f32⟩ : BufTy).Contents (Elt Ideal))
    (b : Fin 4) (n : Fin 4096) (e : Fin 128) :
    val_main_v7 (F := Ideal) x0 x3 x4 (ix3 b n e) = proj x0 x3 x4 b n e := by
  rw [val_main_v7_apply, val_main_v4_apply, val_main_v6_apply, val_main_v5_apply]
  simp only [lidx_4, ridx_4, bidx_4]
  rfl

theorem lidx_8 (b : Fin 4) (n : Fin 4096) (e : Fin 128) (k : Fin 256) : lidx_main_v8 (ix3 b n e) k = ix3 b n k := funext fun a => Fin.ext (by match a with | ⟨0, _⟩ => rfl | ⟨1, _⟩ => rfl | ⟨2, _⟩ => rfl)
theorem ridx_8 (b : Fin 4) (n : Fin 4096) (e : Fin 128) (k : Fin 256) : ridx_main_v8 (ix3 b n e) k = ix2 k e := funext fun a => Fin.ext (by match a with | ⟨0, _⟩ => rfl | ⟨1, _⟩ => rfl)
theorem bidx_8 (b : Fin 4) (n : Fin 4096) (e : Fin 128) : idx_main_v9 (idx_main_v10 (ix3 b n e)) = ix1 e := funext fun a => Fin.ext (by match a with | ⟨0, _⟩ => rfl)

/-- The reference's value rows are the projected rows. -/
theorem value_apply (x0 : (⟨S4x4096x256, .f32⟩ : BufTy).Contents (Elt Ideal)) (x5 : (⟨S256x128, .f32⟩ : BufTy).Contents (Elt Ideal)) (x6 : (⟨S128, .f32⟩ : BufTy).Contents (Elt Ideal))
    (b : Fin 4) (n : Fin 4096) (e : Fin 128) :
    val_main_v11 (F := Ideal) x0 x5 x6 (ix3 b n e) = proj x0 x5 x6 b n e := by
  rw [val_main_v11_apply, val_main_v8_apply, val_main_v10_apply, val_main_v9_apply]
  simp only [lidx_8, ridx_8, bidx_8]
  rfl

theorem lidx_12 (b : Fin 4) (n j : Fin 4096) (e : Fin 128) : lidx_main_v12 (ix3 b n j) e = ix3 b n e := funext fun a => Fin.ext (by match a with | ⟨0, _⟩ => rfl | ⟨1, _⟩ => rfl | ⟨2, _⟩ => rfl)
theorem ridx_12 (b : Fin 4) (n j : Fin 4096) (e : Fin 128) : ridx_main_v12 (ix3 b n j) e = ix3 b j e := funext fun a => Fin.ext (by match a with | ⟨0, _⟩ => rfl | ⟨1, _⟩ => rfl | ⟨2, _⟩ => rfl)

/-- The reference's scores. -/
theorem score_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n j : Fin 4096) :
    val_main_v12 (F := Ideal) x0 x1 x2 x3 x4 (ix3 b n j) = score (proj x0 x1 x2 b n) (proj x0 x3 x4 b) j := by
  rw [val_main_v12_apply]
  unfold score
  refine Finset.sum_congr rfl fun e _ => ?_
  rw [lidx_12, ridx_12, query_apply, key_apply]

/-- The reference's row maximum: a fold of `max` from −∞ over the row's 4096 scores. -/
theorem rowmax_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n : Fin 4096) :
    val_main_v13 (F := Ideal) x0 x1 x2 x3 x4 (ix2 b n) = top (proj x0 x1 x2 b n) (proj x0 x3 x4 b) := by
  unfold val_main_v13
  refine (Host.reduce_eq_fold_single (FloatOps.maximumf (F := Ideal) (φ := .f32)) _ _ reducesTo_S4x4096x4096_S4x4096_d2
    (by decide) h_S_ (ix2 b n)).trans ?_
  unfold top
  refine Finset.fold_congr fun j _ => ?_
  show val_main_v12 (F := Ideal) x0 x1 x2 x3 x4 _ = _
  rw [← score_apply x0 x1 x2 x3 x4 b n j]
  exact congrArg _ (funext fun a => Fin.ext (by match a with | ⟨0, _⟩ => rfl | ⟨1, _⟩ => rfl | ⟨2, _⟩ => rfl))

theorem tidx (b : Fin 4) (n j : Fin 4096) : idx_main_v16 (idx_main_v17 (ix3 b n j)) = ix2 b n := funext fun a => Fin.ext (by match a with | ⟨0, _⟩ => rfl | ⟨1, _⟩ => rfl)

/-- … and the larger of −∞ and it is it. -/
theorem top_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n : Fin 4096) :
    val_main_v15 (F := Ideal) x0 x1 x2 x3 x4 (ix2 b n) = top (proj x0 x1 x2 b n) (proj x0 x3 x4 b) := by
  rw [val_main_v15_apply, rowmax_apply, val_main_v14_apply, val_main_cst_0_apply]
  exact floor_max_top _ _

/-- The reference's unnormalised weights. -/
theorem weight_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n j : Fin 4096) :
    val_main_v19 (F := Ideal) x0 x1 x2 x3 x4 (ix3 b n j) = weight (proj x0 x1 x2 b n) (proj x0 x3 x4 b) j := by
  rw [val_main_v19_apply, val_main_v18_apply, val_main_v17_apply, val_main_v16_apply, tidx, top_apply, score_apply]
  rfl

theorem sidx (b : Fin 4) (n j : Fin 4096) : idx_main_v20 (ix2 b n) j = ix3 b n j := funext fun a => Fin.ext (by match a with | ⟨0, _⟩ => rfl | ⟨1, _⟩ => rfl | ⟨2, _⟩ => rfl)

/-- The reference's row total: 0 plus the sum of the row's weights. -/
theorem total_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n : Fin 4096) :
    val_main_v20 (F := Ideal) x0 x1 x2 x3 x4 (ix2 b n) = ∑ j : Fin 4096, weight (proj x0 x1 x2 b n) (proj x0 x3 x4 b) j := by
  rw [val_main_v20_apply, val_main_cst_1_apply]
  show Ideal.ofBits .f32 0x00000000#32 + _ = _
  rw [Ideal.ofBits_zero_f32, zero_add]
  refine Finset.sum_congr rfl fun j _ => ?_
  rw [sidx, weight_apply]

theorem didx (b : Fin 4) (n j : Fin 4096) : idx_main_v21 (idx_main_v22 (ix3 b n j)) = ix2 b n := funext fun a => Fin.ext (by match a with | ⟨0, _⟩ => rfl | ⟨1, _⟩ => rfl)

/-- The reference's normalised weights. -/
theorem prob_apply (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (b : Fin 4) (n j : Fin 4096) :
    val_main_v23 (F := Ideal) x0 x1 x2 x3 x4 (ix3 b n j)
      = Ideal.div (weight (proj x0 x1 x2 b n) (proj x0 x3 x4 b) j) (∑ j' : Fin 4096, weight (proj x0 x1 x2 b n) (proj x0 x3 x4 b) j') := by
  rw [val_main_v23_apply, val_main_v22_apply, val_main_v21_apply, didx, total_apply, weight_apply]
  rfl

theorem lidx_24 (b : Fin 4) (n : Fin 4096) (h : Fin 128) (j : Fin 4096) : lidx_main_v24 (ix3 b n h) j = ix3 b n j := funext fun a => Fin.ext (by match a with | ⟨0, _⟩ => rfl | ⟨1, _⟩ => rfl | ⟨2, _⟩ => rfl)
theorem ridx_24 (b : Fin 4) (n : Fin 4096) (h : Fin 128) (j : Fin 4096) : ridx_main_v24 (ix3 b n h) j = ix3 b j h := funext fun a => Fin.ext (by match a with | ⟨0, _⟩ => rfl | ⟨1, _⟩ => rfl | ⟨2, _⟩ => rfl)

/-- The reference's result is the specification's, entry by entry. -/
theorem result_eq (x0 : (⟨S4x4096x256, .f32⟩ : BufTy).Contents (Elt Ideal)) (x1 : (⟨S256x128, .f32⟩ : BufTy).Contents (Elt Ideal)) (x2 : (⟨S128, .f32⟩ : BufTy).Contents (Elt Ideal)) (x3 : (⟨S256x128, .f32⟩ : BufTy).Contents (Elt Ideal)) (x4 : (⟨S128, .f32⟩ : BufTy).Contents (Elt Ideal)) (x5 : (⟨S256x128, .f32⟩ : BufTy).Contents (Elt Ideal)) (x6 : (⟨S128, .f32⟩ : BufTy).Contents (Elt Ideal)) :
    val_main_v24 (F := Ideal) x0 x1 x2 x3 x4 x5 x6 = attention x0 x1 x2 x3 x4 x5 x6 := by
  funext i
  obtain ⟨b, n, h, rfl⟩ : ∃ (b : Fin 4) (n : Fin 4096) (h : Fin 128), i = ix3 b n h := ⟨i 0, i 1, i 2, eq_ix3 i⟩
  rw [val_main_v24_apply, attention_apply]
  unfold attend
  refine Finset.sum_congr rfl fun j _ => ?_
  rw [lidx_24, ridx_24, prob_apply, value_apply]

end Cert.ReferenceIdeal.RefAttn

end
-- ==== Proof.Ops.lean ====
/-
  The kernel's arithmetic, one kind of operation at a time, read at an index over the extended reals.

  A matrix product into a zero accumulator is the plain sum of products over the contracted axis — for the three
  products that contract the left operand's columns with the right operand's rows, and for the score product, which
  contracts the columns of both. A lane maximum from −∞ is the fold of `max` over the row; a lane sum from 0 is the
  sum over the row; a column of 256 numbers reshaped to 256 × 1 and broadcast along 4096 lanes reads, at `(r, j)`,
  entry `r`.
-/
import proofs.«117224_j15556371546452_2_alg».proof.Proof.Gen.KernelIdeal.Skeleton
import proofs.«117224_j15556371546452_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Attn

open Cert.KernelIdeal Cert.KernelIdeal.Gen Idealize.ShloMosaic Idealize.ShloMosaic.ValueIdx Cert.AttnSpec

theorem mmJoined_l0 (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mmJoined_l1 (i : S4096x256.Idx) (q : dot_S4096x256_S256x256_S4096x256_1_0_0_1_n_n.contr.Idx) : (dot_S4096x256_S256x256_S4096x256_1_0_0_1_n_n.lhsIdx i q 1).val = (q ⟨0, by decide⟩).val :=
  dot_S4096x256_S256x256_S4096x256_1_0_0_1_n_n.lhsIdx_val_of_single rfl i q
theorem mmJoined_r0 (i : S4096x256.Idx) (q : dot_S4096x256_S256x256_S4096x256_1_0_0_1_n_n.contr.Idx) : (dot_S4096x256_S256x256_S4096x256_1_0_0_1_n_n.rhsIdx i q 0).val = (q ⟨0, by decide⟩).val :=
  dot_S4096x256_S256x256_S4096x256_1_0_0_1_n_n.rhsIdx_val_of_single rfl i q
theorem mmJoined_r1 (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The joined key/value projection's product: rows of the batch against the 256 joined weight columns. -/
theorem mmJoined_apply {φ₁ φ₂ : FTy} (l : FVec Ideal S4096x256 φ₁) (r : FVec Ideal S256x256 φ₂) (m : Fin 4096) (n : Fin 256) :
    matmul dot_S4096x256_S256x256_S4096x256_1_0_0_1_n_n none l r (constant S4096x256 .f32 0x00000000#32) (ix2 m n) = ∑ k : Fin 256, l (ix2 m k) * r (ix2 k n) := by
  refine (Ideal.matmul_constant_zero_apply dot_S4096x256_S256x256_S4096x256_1_0_0_1_n_n none l r (ix2 m n)).trans ?_
  rw [← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 m n) ((contrEquiv1 dot_S4096x256_S256x256_S4096x256_1_0_0_1_n_n 256 rfl rfl).symm k) = ix2 m k := funext fun a => Fin.ext (by
    match a with
    | ⟨0, _⟩ => exact mmJoined_l0 _ _
    | ⟨1, _⟩ => exact (mmJoined_l1 _ _).trans hk)
  have er : dot_S4096x256_S256x256_S4096x256_1_0_0_1_n_n.rhsIdx (ix2 m n) ((contrEquiv1 dot_S4096x256_S256x256_S4096x256_1_0_0_1_n_n 256 rfl rfl).symm k) = ix2 k n := funext fun a => Fin.ext (by
    match a with
    | ⟨0, _⟩ => exact (mmJoined_r0 _ _).trans hk
    | ⟨1, _⟩ => exact mmJoined_r1 _ _)
  rw [el, er]

theorem mmQuery_l0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem mmQuery_l1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem mmQuery_r0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem mmQuery_r1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- The query projection's product. -/
theorem mmQuery_apply {φ₁ φ₂ : FTy} (l : FVec Ideal S256x256 φ₁) (r : FVec Ideal S256x128 φ₂) (m : Fin 256) (n : Fin 128) :
    matmul dot_S256x256_S256x128_S256x128_1_0_0_1_n_n none l r (constant S256x128 .f32 0x00000000#32) (ix2 m n) = ∑ k : Fin 256, l (ix2 m k) * r (ix2 k n) := by
  refine (Ideal.matmul_constant_zero_apply dot_S256x256_S256x128_S256x128_1_0_0_1_n_n none l r (ix2 m n)).trans ?_
  rw [← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 m n) ((contrEquiv1 dot_S256x256_S256x128_S256x128_1_0_0_1_n_n 256 rfl rfl).symm k) = ix2 m k := funext fun a => Fin.ext (by
    match a with
    | ⟨0, _⟩ => exact mmQuery_l0 _ _
    | ⟨1, _⟩ => exact (mmQuery_l1 _ _).trans hk)
  have er : dot_S256x256_S256x128_S256x128_1_0_0_1_n_n.rhsIdx (ix2 m n) ((contrEquiv1 dot_S256x256_S256x128_S256x128_1_0_0_1_n_n 256 rfl rfl).symm k) = ix2 k n := funext fun a => Fin.ext (by
    match a with
    | ⟨0, _⟩ => exact (mmQuery_r0 _ _).trans hk
    | ⟨1, _⟩ => exact mmQuery_r1 _ _)
  rw [el, er]

theorem mmScore_l0 (i : S256x4096.Idx) (q : dot_S256x128_S4096x128_S256x4096_1_1_0_0_n_n.contr.Idx) : (dot_S256x128_S4096x128_S256x4096_1_1_0_0_n_n.lhsIdx i q 0).val = (i 0).val := by
  unfold DotDims.lhsIdx
  rw [dif_neg (show ¬(0 : Fin S256x128.rank) ∈ dot_S256x128_S4096x128_S256x4096_1_1_0_0_n_n.lhsBatch by decide), dif_pos (show (0 : Fin S256x128.rank) ∈ dot_S256x128_S4096x128_S256x4096_1_1_0_0_n_n.lhsNonContracting by decide)]
  rfl
theorem mmScore_l1 (i : S256x4096.Idx) (q : dot_S256x128_S4096x128_S256x4096_1_1_0_0_n_n.contr.Idx) : (dot_S256x128_S4096x128_S256x4096_1_1_0_0_n_n.lhsIdx i q 1).val = (q ⟨0, by decide⟩).val :=
  dot_S256x128_S4096x128_S256x4096_1_1_0_0_n_n.lhsIdx_val_of_single rfl i q
theorem mmScore_r0 (i : S256x4096.Idx) (q : dot_S256x128_S4096x128_S256x4096_1_1_0_0_n_n.contr.Idx) : (dot_S256x128_S4096x128_S256x4096_1_1_0_0_n_n.rhsIdx i q 0).val = (i 1).val := by
  unfold DotDims.rhsIdx
  rw [dif_neg (show ¬(0 : Fin S4096x128.rank) ∈ dot_S256x128_S4096x128_S256x4096_1_1_0_0_n_n.rhsBatch by decide), dif_pos (show (0 : Fin S4096x128.rank) ∈ dot_S256x128_S4096x128_S256x4096_1_1_0_0_n_n.rhsNonContracting by decide)]
  rfl
theorem mmScore_r1 (i : S256x4096.Idx) (q : dot_S256x128_S4096x128_S256x4096_1_1_0_0_n_n.contr.Idx) : (dot_S256x128_S4096x128_S256x4096_1_1_0_0_n_n.rhsIdx i q 1).val = (q ⟨0, by decide⟩).val :=
  dot_S256x128_S4096x128_S256x4096_1_1_0_0_n_n.rhsIdx_val_of_single rfl i q

/-- The score product: query rows against key rows, both contracted along their 128 features. -/
theorem mmScore_apply {φ₁ φ₂ : FTy} (l : FVec Ideal S256x128 φ₁) (r : FVec Ideal S4096x128 φ₂) (m : Fin 256) (n : Fin 4096) :
    matmul dot_S256x128_S4096x128_S256x4096_1_1_0_0_n_n none l r (constant S256x4096 .f32 0x00000000#32) (ix2 m n) = ∑ k : Fin 128, l (ix2 m k) * r (ix2 n k) := by
  refine (Ideal.matmul_constant_zero_apply dot_S256x128_S4096x128_S256x4096_1_1_0_0_n_n none l r (ix2 m n)).trans ?_
  rw [← Equiv.sum_comp (contrEquiv1 dot_S256x128_S4096x128_S256x4096_1_1_0_0_n_n 128 rfl rfl).symm]
  refine Finset.sum_congr rfl fun k _ => ?_
  have hk := contrEquiv1_symm_val dot_S256x128_S4096x128_S256x4096_1_1_0_0_n_n 128 rfl rfl k
  have el : dot_S256x128_S4096x128_S256x4096_1_1_0_0_n_n.lhsIdx (ix2 m n) ((contrEquiv1 dot_S256x128_S4096x128_S256x4096_1_1_0_0_n_n 128 rfl rfl).symm k) = ix2 m k := funext fun a => Fin.ext (by
    match a with
    | ⟨0, _⟩ => exact mmScore_l0 _ _
    | ⟨1, _⟩ => exact (mmScore_l1 _ _).trans hk)
  have er : dot_S256x128_S4096x128_S256x4096_1_1_0_0_n_n.rhsIdx (ix2 m n) ((contrEquiv1 dot_S256x128_S4096x128_S256x4096_1_1_0_0_n_n 128 rfl rfl).symm k) = ix2 n k := funext fun a => Fin.ext (by
    match a with
    | ⟨0, _⟩ => exact mmScore_r0 _ _
    | ⟨1, _⟩ => exact (mmScore_r1 _ _).trans hk)
  rw [el, er]

theorem mmMix_l0 (i : S256x128.Idx) (q : dot_S256x4096_S4096x128_S256x128_1_0_0_1_n_n.contr.Idx) : (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem mmMix_l1 (i : S256x128.Idx) (q : dot_S256x4096_S4096x128_S256x128_1_0_0_1_n_n.contr.Idx) : (dot_S256x4096_S4096x128_S256x128_1_0_0_1_n_n.lhsIdx i q 1).val = (q ⟨0, by decide⟩).val :=
  dot_S256x4096_S4096x128_S256x128_1_0_0_1_n_n.lhsIdx_val_of_single rfl i q
theorem mmMix_r0 (i : S256x128.Idx) (q : dot_S256x4096_S4096x128_S256x128_1_0_0_1_n_n.contr.Idx) : (dot_S256x4096_S4096x128_S256x128_1_0_0_1_n_n.rhsIdx i q 0).val = (q ⟨0, by decide⟩).val :=
  dot_S256x4096_S4096x128_S256x128_1_0_0_1_n_n.rhsIdx_val_of_single rfl i q
theorem mmMix_r1 (i : S256x128.Idx) (q : dot_S256x4096_S4096x128_S256x128_1_0_0_1_n_n.contr.Idx) : (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The mixing product: a row of weights against the value rows. -/
theorem mmMix_apply {φ₁ φ₂ : FTy} (l : FVec Ideal S256x4096 φ₁) (r : FVec Ideal S4096x128 φ₂) (m : Fin 256) (n : Fin 128) :
    matmul dot_S256x4096_S4096x128_S256x128_1_0_0_1_n_n none l r (constant S256x128 .f32 0x00000000#32) (ix2 m n) = ∑ k : Fin 4096, l (ix2 m k) * r (ix2 k n) := by
  refine (Ideal.matmul_constant_zero_apply dot_S256x4096_S4096x128_S256x128_1_0_0_1_n_n none l r (ix2 m n)).trans ?_
  rw [← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 m n) ((contrEquiv1 dot_S256x4096_S4096x128_S256x128_1_0_0_1_n_n 4096 rfl rfl).symm k) = ix2 m k := funext fun a => Fin.ext (by
    match a with
    | ⟨0, _⟩ => exact mmMix_l0 _ _
    | ⟨1, _⟩ => exact (mmMix_l1 _ _).trans hk)
  have er : dot_S256x4096_S4096x128_S256x128_1_0_0_1_n_n.rhsIdx (ix2 m n) ((contrEquiv1 dot_S256x4096_S4096x128_S256x128_1_0_0_1_n_n 4096 rfl rfl).symm k) = ix2 k n := funext fun a => Fin.ext (by
    match a with
    | ⟨0, _⟩ => exact (mmMix_r0 _ _).trans hk
    | ⟨1, _⟩ => exact mmMix_r1 _ _)
  rw [el, er]

/-- A column of 256 entries, reshaped to 256 × 1 and broadcast along the lanes, reads entry `r` at `(r, j)`. -/
theorem col_apply {α : Type} (m : S256.Idx → α) (h1 : S256.ShapeCasts S256x1) (h2 : S256x1.Broadcasts S256x4096)
    (r : Fin 256) (j : Fin 4096) :
    broadcastTo S256x4096 (shapeCast S256x1 m h1) h2 (ix2 r j) = m (ix1 r) := by
  refine (broadcastTo_apply _ h2 (ix2 r j) (ix2 r (0 : Fin 1)) fun ax => ?_).trans ?_
  · match ax with
    | ⟨0, _⟩ => show r.val = if (256 : Nat) = 1 then 0 else r.val; rw [if_neg (by decide)]
    | ⟨1, _⟩ => show (0 : Nat) = if (1 : Nat) = 1 then 0 else j.val; rw [if_pos rfl]
  · exact shapeCast_apply m h1 (ix2 r (0 : Fin 1)) (ix1 r) (by
      rw [Shape.rowMajor_val_one, Shape.rowMajor_val_two]
      show r.val = r.val * 1 + 0
      omega)

/-- The lane maximum of row `r`, from −∞. -/
theorem rowmax_apply (s : FVec Ideal S256x4096 .f32) (hred : S256x4096.Reduces [1] S256) (hφ : FKind.Formats .f32)
    (hacc : (0xFF800000#32 : BitVec 32) = FKind.maximumf.neutral .f32 hφ) (r : Fin 256) :
    multiReduction .maximumf [1] S256 s 0xFF800000#32 hred hφ hacc (ix1 r)
      = (Finset.univ : Finset (Fin 4096)).fold max floor (fun j => s (ix2 r j)) := by
  refine (Ideal.multiReduction_maximumf_single s _ hred hφ hacc (ix1 r)).trans ?_
  refine Finset.fold_congr fun j _ => ?_
  exact congrArg s (funext fun a => Fin.ext (by match a with | ⟨0, _⟩ => rfl | ⟨1, _⟩ => rfl))

/-- The lane sum of row `r`, from 0. -/
theorem rowsum_apply (p : FVec Ideal S256x4096 .f32) (hred : S256x4096.Reduces [1] S256) (hφ : FKind.Formats .f32)
    (hacc : (0x00000000#32 : BitVec 32) = FKind.add.neutral .f32 hφ) (r : Fin 256) :
    multiReduction .add [1] S256 p 0x00000000#32 hred hφ hacc (ix1 r) = ∑ j : Fin 4096, p (ix2 r j) := by
  refine (Ideal.multiReduction_add_single p _ hred hφ hacc (ix1 r)).trans ?_
  refine Finset.sum_congr rfl fun j _ => ?_
  exact congrArg p (funext fun a => Fin.ext (by match a with | ⟨0, _⟩ => rfl | ⟨1, _⟩ => rfl))

end Cert.KernelIdeal.Attn

end
-- ==== Proof.Payload.lean ====
/-
  The body's three stored values at an index, over the extended reals.

  The value stored into the output block is cut here into its four stages — the query tile `rows · Wq + bq`, the
  scores of the tile against the keys, the softmax of each score row, and the mix of the value rows — so that each
  stage is read at an index over variables of its own; the generated payload is their composition, by unfolding.
  Entry `(r, h)` of the output block is then the specification's attended row for the query row `r` of the tile.
  The two values stored into the scratch are the left and right 128 columns of the joined projection
  `rows · [Wk | Wv] + [bk | bv]` of the whole batch. Changes of float format are the identity here.
-/
import proofs.«117224_j15556371546452_2_alg».proof.Proof.Ops

noncomputable section

namespace Cert.KernelIdeal.Attn

open Cert.KernelIdeal Cert.KernelIdeal.Gen Idealize.ShloMosaic Idealize.ShloMosaic.ValueIdx Cert.AttnSpec

variable {F : FTy → Type} [FloatOps F]

/-! ## The stages of the output block's value -/

/-- The query tile: the tile's 256 rows times `Wq`, plus `bq` on every row. -/
def queryTile (v6 : Vec F S1x256x256 .f32) (v9 : Vec F S256x128 .f32) (v12 : Vec F S1x128 .f32) : FVec F S256x128 .bf16 :=
  truncf .bf16 (addf
    (matmul dot_S256x256_S256x128_S256x128_1_0_0_1_n_n none
      (truncf .bf16 (shapeCast S256x256 v6 shapeCasts_S1x256x256_S256x256) bitsLt_bf16_f32) (truncf .bf16 v9 bitsLt_bf16_f32)
      (constant S256x128 .f32 0x00000000#32))
    (broadcastTo S256x128 (shapeCast S1x128 v12 shapeCasts_S1x128_S1x128) broadcasts_S1x128_S256x128)) bitsLt_bf16_f32

/-- The scores of a query tile against 4096 key rows. -/
def scoreTile (q : FVec F S256x128 .bf16) (v17 : Vec F S4096x128 .bf16) : FVec F S256x4096 .f32 :=
  matmul dot_S256x128_S4096x128_S256x4096_1_1_0_0_n_n none q v17 (constant S256x4096 .f32 0x00000000#32)

/-- The softmax of every row of a score tile. -/
def softmaxTile (s : FVec F S256x4096 .f32) : FVec F S256x4096 .f32 :=
  have v20 : FVec F S256 .f32 := multiReduction .maximumf [1] S256 s 0xFF800000#32 reduces_S256x4096_S256 (.inl rfl) rfl
  have v22 : FVec F S256x4096 .f32 := broadcastTo S256x4096 (shapeCast S256x1 v20 shapeCasts_S256_S256x1) broadcasts_S256x1_S256x4096
  have v24 : FVec F S256x4096 .f32 := exp (subf s v22)
  have v25 : FVec F S256 .f32 := multiReduction .add [1] S256 v24 0x00000000#32 reduces_S256x4096_S256 (.inl rfl) rfl
  have v27 : FVec F S256x4096 .f32 := broadcastTo S256x4096 (shapeCast S256x1 v25 shapeCasts_S256_S256x1) broadcasts_S256x1_S256x4096
  divf v24 v27

/-- The value rows mixed by a tile of weights, as a 1 × 256 × 128 block. -/
def mixTile (p : FVec F S256x4096 .f32) (v18 : Vec F S4096x128 .bf16) : FVec F S1x256x128 .f32 :=
  shapeCast S1x256x128
    (matmul dot_S256x4096_S4096x128_S256x128_1_0_0_1_n_n none (truncf .bf16 p bitsLt_bf16_f32) v18 (constant S256x128 .f32 0x00000000#32))
    shapeCasts_S256x128_S1x256x128

/-- The generated value of the output block is the four stages composed. -/
theorem pay4_eq (v6 : Vec F S1x256x256 .f32) (v9 : Vec F S256x128 .f32) (v12 : Vec F S1x128 .f32) (v17 v18 : Vec F S4096x128 .bf16) :
    k0_pay4 v6 v9 v12 v17 v18 = mixTile (softmaxTile (scoreTile (queryTile v6 v9 v12) v17)) v18 := rfl

/-! ## Each stage at an index -/

theorem queryTile_apply (v6 : Vec Ideal S1x256x256 .f32) (v9 : Vec Ideal S256x128 .f32) (v12 : Vec Ideal S1x128 .f32)
    (r : Fin 256) (e : Fin 128) :
    queryTile v6 v9 v12 (ix2 r e)
      = lin (fun d => v6 (ix3 (0 : Fin 1) r d)) (fun d e => v9 (ix2 d e)) (fun e => v12 (ix2 (0 : Fin 1) e)) e := by
  unfold queryTile lin
  refine (addf_apply _ _ (ix2 r e)).trans ?_
  refine congrArg₂ (· + ·) ?_ ?_
  · refine (mmQuery_apply _ _ r e).trans ?_
    refine Finset.sum_congr rfl fun d _ => ?_
    refine congrArg₂ (· * ·) ?_ rfl
    exact shapeCast_1ab_ab_apply v6 _ r d
  · refine (broadcastTo_1b_ab_apply _ _ r e).trans ?_
    exact congrFun (shapeCast_self v12 _) (ix2 (0 : Fin 1) e)

theorem scoreTile_apply (q : FVec Ideal S256x128 .bf16) (v17 : Vec Ideal S4096x128 .bf16) (r : Fin 256) (j : Fin 4096) :
    scoreTile q v17 (ix2 r j) = score (fun e => q (ix2 r e)) (fun j e => v17 (ix2 j e)) j :=
  mmScore_apply q v17 r j

theorem softmaxTile_apply (s : FVec Ideal S256x4096 .f32) (r : Fin 256) (j : Fin 4096) :
    softmaxTile s (ix2 r j)
      = Ideal.div (Ideal.exp (s (ix2 r j) - (Finset.univ : Finset (Fin 4096)).fold max AttnSpec.floor (fun j => s (ix2 r j))))
          (∑ j' : Fin 4096, Ideal.exp (s (ix2 r j') - (Finset.univ : Finset (Fin 4096)).fold max AttnSpec.floor (fun j => s (ix2 r j)))) := by
  unfold softmaxTile
  refine (divf_apply _ _ (ix2 r j)).trans ?_
  have hw : ∀ j' : Fin 4096,
      exp (subf s (broadcastTo S256x4096 (shapeCast S256x1
          (multiReduction .maximumf [1] S256 s 0xFF800000#32 reduces_S256x4096_S256 (.inl rfl) rfl) shapeCasts_S256_S256x1)
          broadcasts_S256x1_S256x4096)) (ix2 r j')
        = Ideal.exp (s (ix2 r j') - (Finset.univ : Finset (Fin 4096)).fold max AttnSpec.floor (fun j => s (ix2 r j))) := fun j' => by
    show Ideal.exp (s (ix2 r j') - _) = _
    refine congrArg (fun z => Ideal.exp (s (ix2 r j') - z)) ?_
    exact (col_apply _ _ _ r j').trans (rowmax_apply s _ _ _ r)
  refine congrArg₂ Ideal.div (hw j) ?_
  refine (col_apply _ _ _ r j).trans ?_
  refine (rowsum_apply _ _ _ _ r).trans ?_
  exact Finset.sum_congr rfl fun j' _ => hw j'

theorem mixTile_apply (p : FVec Ideal S256x4096 .f32) (v18 : Vec Ideal S4096x128 .bf16) (r : Fin 256) (h : Fin 128) :
    mixTile p v18 (ix3 (0 : Fin 1) r h) = ∑ j : Fin 4096, p (ix2 r j) * v18 (ix2 j h) := by
  unfold mixTile
  refine (shapeCast_ab_1ab_apply _ _ (0 : Fin 1) r h).trans ?_
  exact mmMix_apply _ v18 r h

/-- Entry `(r, h)` of the output block: query row `r` of the tile, projected, attended over the key and value rows
    the scratch holds. -/
theorem pay4_apply (v6 : Vec Ideal S1x256x256 .f32) (v9 : Vec Ideal S256x128 .f32) (v12 : Vec Ideal S1x128 .f32)
    (v17 v18 : Vec Ideal S4096x128 .bf16) (r : Fin 256) (h : Fin 128) :
    k0_pay4 v6 v9 v12 v17 v18 (ix3 (0 : Fin 1) r h)
      = attend (lin (fun d => v6 (ix3 (0 : Fin 1) r d)) (fun d e => v9 (ix2 d e)) (fun e => v12 (ix2 (0 : Fin 1) e)))
          (fun j e => v17 (ix2 j e)) (fun j e => v18 (ix2 j e)) h := by
  rw [pay4_eq, mixTile_apply]
  have hq : (fun e => queryTile v6 v9 v12 (ix2 r e))
      = lin (fun d => v6 (ix3 (0 : Fin 1) r d)) (fun d e => v9 (ix2 d e)) (fun e => v12 (ix2 (0 : Fin 1) e)) :=
    funext fun e => queryTile_apply v6 v9 v12 r e
  have hs : ∀ j : Fin 4096, scoreTile (queryTile v6 v9 v12) v17 (ix2 r j)
      = score (lin (fun d => v6 (ix3 (0 : Fin 1) r d)) (fun d e => v9 (ix2 d e)) (fun e => v12 (ix2 (0 : Fin 1) e)))
          (fun j e => v17 (ix2 j e)) j := fun j => by
    rw [scoreTile_apply, hq]
  unfold attend weight top
  refine Finset.sum_congr rfl fun j _ => ?_
  refine congrArg₂ (· * ·) ?_ rfl
  rw [softmaxTile_apply]
  simp only [hs]

/-! ## The two scratch values -/

/-- The joined projection of the batch at `(n, c)`: row `n` against joined weight column `c`, plus the joined bias. -/
theorem pay1_apply (v34 : Vec Ideal S1x4096x256 .f32) (v37 : Vec Ideal S256x256 .f32) (v41 : Vec Ideal S1x256 .f32)
    (n : Fin 4096) (c : Fin 256) :
    k0_pay1 v34 v37 v41 (ix2 n c) = (∑ d : Fin 256, v34 (ix3 (0 : Fin 1) n d) * v37 (ix2 d c)) + v41 (ix2 (0 : Fin 1) c) := by
  unfold k0_pay1
  refine (addf_apply _ _ (ix2 n c)).trans ?_
  refine congrArg₂ (· + ·) ?_ ?_
  · refine (mmJoined_apply _ _ n c).trans ?_
    refine Finset.sum_congr rfl fun d _ => ?_
    refine congrArg₂ (· * ·) ?_ ?_
    · exact shapeCast_1ab_ab_apply v34 _ n d
    · exact congrFun (shapeCast_self v37 _) (ix2 d c)
  · refine (broadcastTo_1b_ab_apply _ _ n c).trans ?_
    exact congrFun (shapeCast_self v41 _) (ix2 (0 : Fin 1) c)

/-- The key scratch's value: the left 128 columns of the joined projection. -/
theorem pay2_apply (v34 : Vec Ideal S1x4096x256 .f32) (v37 : Vec Ideal S256x256 .f32) (v41 : Vec Ideal S1x256 .f32)
    (n : Fin 4096) (e : Fin 128) (c : Fin 256) (hc : c.val = 0 + e.val) :
    k0_pay2 v34 v37 v41 (ix2 n e) = (∑ d : Fin 256, v34 (ix3 (0 : Fin 1) n d) * v37 (ix2 d c)) + v41 (ix2 (0 : Fin 1) c) := by
  unfold k0_pay2
  refine (congrFun (shapeCast_self _ _) (ix2 n e)).trans ?_
  show extractStridedSlice S4096x128 ![0, 0] (k0_pay1 v34 v37 v41) slices_S4096x256_o0_0_S4096x128 (ix2 n e) = _
  refine (slice2_axis1_apply 0 _ _ n e c hc).trans ?_
  exact pay1_apply v34 v37 v41 n c

/-- The value scratch's value: the right 128 columns of the joined projection. -/
theorem pay3_apply (v34 : Vec Ideal S1x4096x256 .f32) (v37 : Vec Ideal S256x256 .f32) (v41 : Vec Ideal S1x256 .f32)
    (n : Fin 4096) (e : Fin 128) (c : Fin 256) (hc : c.val = 128 + e.val) :
    k0_pay3 v34 v37 v41 (ix2 n e) = (∑ d : Fin 256, v34 (ix3 (0 : Fin 1) n d) * v37 (ix2 d c)) + v41 (ix2 (0 : Fin 1) c) := by
  unfold k0_pay3
  refine (congrFun (shapeCast_self _ _) (ix2 n e)).trans ?_
  show extractStridedSlice S4096x128 ![0, 128] (k0_pay1 v34 v37 v41) slices_S4096x256_o0_128_S4096x128 (ix2 n e) = _
  refine (slice2_axis1_apply 128 _ _ n e c hc).trans ?_
  exact pay1_apply v34 v37 v41 n c

end Cert.KernelIdeal.Attn

end
-- ==== Proof.Inputs.lean ====
/-
  What the body finds in its five input blocks, by coordinates.

  The block of `x` at grid point `t` is the whole batch `t / 16`; the other four blocks are whole arrays and do not
  move with the point. Three of those arrays are written before the launch: the joined weights `[Wk | Wv]` (columns
  0–127 from `Wk`, 128–255 from `Wv`), the joined bias `[bk | bv]` as one row, and `bq` as one row.
-/
import proofs.«117224_j15556371546452_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem

namespace Cert.KernelIdeal.Attn

open Cert.KernelIdeal Cert.KernelIdeal.Gen Idealize.ShloMosaic.ValueIdx

variable {F : FTy → Type} [FloatOps F]
variable (m : (ℓ : Loc nD τ sig) → Buf (Elt F) ℓ)

/-! ## The arrays written before the launch -/

/-- The joined weights: `Wk` and `Wv` side by side. -/
theorem V_wkv (c : Dev nD) : (V m c main_call0_v0 : S256x256.Idx → Elt F .f32)
    = concatenate S256x256 1 [⟨S256x128, m ((c : Thread nD τ).loc main_arg3)⟩, ⟨S256x128, m ((c : Thread nD τ).loc main_arg5)⟩] concatenates_S256x128_S256x128_S256x256_d1 := by
  dsimp only [V, hostOps0]; after_results; rfl

/-- The joined bias as one row: `bk` then `bv`. -/
theorem V_bkv (c : Dev nD) : (V m c main_call0_v2 : S1x256.Idx → Elt F .f32)
    = shapeCast S1x256 (concatenate S256 0 [⟨S128, m ((c : Thread nD τ).loc main_arg4)⟩, ⟨S128, m ((c : Thread nD τ).loc main_arg6)⟩] concatenates_S128_S128_S256_d0) shapeCasts_S256_S1x256 := by
  dsimp only [V, hostOps0]; after_results; rfl

/-- `bq` as one row. -/
theorem V_bq (c : Dev nD) : (V m c main_call0_v3 : S1x128.Idx → Elt F .f32)
    = shapeCast S1x128 (m ((c : Thread nD τ).loc main_arg2)) shapeCasts_S128_S1x128 := by
  dsimp only [V, hostOps0]; after_results; rfl

/-! ## The windows' block indices over the grid -/

/-- Point `t` is query tile `t % 16` of batch `t / 16`: the block of `x` follows the batch, the output block
    the batch and the tile, the other blocks stay at the origin (decided over the 64 points). -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val / 16 ∧ win0_5.index t (1 : Fin 3) = t.val % 16 ∧ win0_5.index t (2 : Fin 3) = 0 :=
  (by decide +kernel : ∀ t : Fin grid0.N, _)

/-- The row offset of the query tile's load inside the batch's block: `256 · (t % 16)`. -/
theorem off_facts : ∀ t : Fin cfg0.N, k0_off1 (grid0.coords t) = ![0, 256 * (t.val % 16), 0] :=
  (by decide +kernel : ∀ t : Fin grid0.N, _)

/-! ## The five blocks -/

/-- The block of `x`: batch `b = t / 16`. -/
theorem xblk_apply (c : Dev nD) (t : Fin cfg0.N) (n : Fin 4096) (d : Fin 256) (b : Fin 4) (hb : b.val = t.val / 16) :
    (iblk m c 0 t : Vec F S1x4096x256 .f32) (ix3 (0 : Fin 1) n d) = m ((c : Thread nD τ).loc main_arg0) (ix3 b n d) := by
  show V m c main_arg0 (((cfg0.win 0).blk t).view.emb (ix3 (0 : Fin 1) n d)) = _
  rw [V_main_arg0]
  obtain ⟨e0, e1, e2, -⟩ := idx_facts t
  refine congrArg _ (funext fun a => Fin.ext ?_)
  match a with
  | ⟨0, _⟩ => show win0_0.index t (0 : Fin 3) * 1 + 1 * 0 = b.val; omega
  | ⟨1, _⟩ => show win0_0.index t (1 : Fin 3) * 4096 + 1 * n.val = n.val; omega
  | ⟨2, _⟩ => show win0_0.index t (2 : Fin 3) * 256 + 1 * d.val = d.val; omega

/-- The rows a query tile loads from the batch's block: row `r` of tile `q = t % 16` is row `256 q + r`. -/
theorem qrows_apply (c : Dev nD) (t : Fin cfg0.N) (r : Fin 256) (d : Fin 256) (b : Fin 4) (hb : b.val = t.val / 16)
    (n : Fin 4096) (hn : n.val = 256 * (t.val % 16) + r.val) :
    View.ld (iblk m c 0 t : Vec F S1x4096x256 .f32) (Rect.unit (s := S1x4096x256) (k0_off1 (grid0.coords t)) S1x256x256.size (k0_off1_inb (grid0.coords t)))
        (ix3 (0 : Fin 1) r d)
      = m ((c : Thread nD τ).loc main_arg0) (ix3 b n d) := by
  refine Eq.trans ?_ (xblk_apply m c t n d b hb)
  show (iblk m c 0 t : Vec F S1x4096x256 .f32) _ = _
  refine congrArg _ (funext fun a => Fin.ext ?_)
  have ho := off_facts t
  match a with
  | ⟨0, _⟩ => show k0_off1 (grid0.coords t) 0 + 1 * 0 = 0; rw [ho]; rfl
  | ⟨1, _⟩ => show k0_off1 (grid0.coords t) 1 + 1 * r.val = n.val; rw [ho]; show 256 * (t.val % 16) + 1 * r.val = n.val; omega
  | ⟨2, _⟩ => show k0_off1 (grid0.coords t) 2 + 1 * d.val = d.val; rw [ho]; show 0 + 1 * d.val = d.val; omega

/-- The block of `Wq` is `Wq`. -/
theorem wq_apply (c : Dev nD) (t : Fin cfg0.N) (d : Fin 256) (e : Fin 128) :
    (iblk m c 1 t : Vec F S256x128 .f32) (ix2 d e) = m ((c : Thread nD τ).loc main_arg1) (ix2 d e) := by
  show V m c main_arg1 (((cfg0.win 1).blk t).view.emb (ix2 d e)) = _
  rw [V_main_arg1]
  obtain ⟨-, -, -, e0, e1, -⟩ := idx_facts t
  refine congrArg _ (funext fun a => Fin.ext ?_)
  match a with
  | ⟨0, _⟩ => show win0_1.index t (0 : Fin 2) * 256 + 1 * d.val = d.val; omega
  | ⟨1, _⟩ => show win0_1.index t (1 : Fin 2) * 128 + 1 * e.val = e.val; omega

/-- The one-row block of `bq`. -/
theorem bq_apply (c : Dev nD) (t : Fin cfg0.N) (e : Fin 128) :
    (iblk m c 2 t : Vec F S1x128 .f32) (ix2 (0 : Fin 1) e) = m ((c : Thread nD τ).loc main_arg2) (ix1 e) := by
  show V m c main_call0_v3 (((cfg0.win 2).blk t).view.emb (ix2 (0 : Fin 1) e)) = _
  obtain ⟨-, -, -, -, -, e0, e1, -⟩ := idx_facts t
  have he : ((cfg0.win 2).blk t).view.emb (ix2 (0 : Fin 1) e) = ix2 (0 : Fin 1) e := funext fun a => Fin.ext (by
    match a with
    | ⟨0, _⟩ => show win0_2.index t (0 : Fin 2) * 1 + 1 * 0 = 0; omega
    | ⟨1, _⟩ => show win0_2.index t (1 : Fin 2) * 128 + 1 * e.val = e.val; omega)
  rw [he, V_bq]
  exact shapeCast_a_1a_apply _ _ (0 : Fin 1) e

theorem wkv_emb (t : Fin cfg0.N) (d k : Fin 256) : ((cfg0.win 3).blk t).view.emb (ix2 d k) = ix2 d k := by
  obtain ⟨-, -, -, -, -, -, -, e0, e1, -⟩ := idx_facts t
  exact funext fun a => Fin.ext (by
    match a with
    | ⟨0, _⟩ => show win0_3.index t (0 : Fin 2) * 256 + 1 * d.val = d.val; omega
    | ⟨1, _⟩ => show win0_3.index t (1 : Fin 2) * 256 + 1 * k.val = k.val; omega)

/-- The joined weights' left half is `Wk`. -/
theorem wkv_left (c : Dev nD) (t : Fin cfg0.N) (d : Fin 256) (e : Fin 128) (k : Fin 256) (hk : k.val = 0 + e.val) :
    (iblk m c 3 t : Vec F S256x256 .f32) (ix2 d k) = m ((c : Thread nD τ).loc main_arg3) (ix2 d e) := by
  show V m c main_call0_v0 (((cfg0.win 3).blk t).view.emb (ix2 d k)) = _
  rw [wkv_emb, V_wkv]
  refine concatenate_pair_apply_left (s₁ := S256x128) (s₂ := S256x128) (1 : Fin 2) _ _ _ (ix2 d k) rfl (ix2 d e) fun b => ?_
  match b with
  | ⟨0, _⟩ => rfl
  | ⟨1, _⟩ => show e.val = k.val; omega

/-- The joined weights' right half is `Wv`. -/
theorem wkv_right (c : Dev nD) (t : Fin cfg0.N) (d : Fin 256) (e : Fin 128) (k : Fin 256) (hk : k.val = 128 + e.val) :
    (iblk m c 3 t : Vec F S256x256 .f32) (ix2 d k) = m ((c : Thread nD τ).loc main_arg5) (ix2 d e) := by
  show V m c main_call0_v0 (((cfg0.win 3).blk t).view.emb (ix2 d k)) = _
  rw [wkv_emb, V_wkv]
  refine concatenate_pair_apply_right (s₁ := S256x128) (s₂ := S256x128) (1 : Fin 2) _ _ _ (ix2 d k) rfl rfl (ix2 d e) (fun b hb => ?_) ?_
  · match b with
    | ⟨0, _⟩ => rfl
    | ⟨1, _⟩ => exact absurd rfl hb
  · show e.val + 128 = k.val; omega

theorem bkv_emb (t : Fin cfg0.N) (k : Fin 256) : ((cfg0.win 4).blk t).view.emb (ix2 (0 : Fin 1) k) = ix2 (0 : Fin 1) k := by
  obtain ⟨-, -, -, -, -, -, -, -, -, e0, e1, -⟩ := idx_facts t
  exact funext fun a => Fin.ext (by
    match a with
    | ⟨0, _⟩ => show win0_4.index t (0 : Fin 2) * 1 + 1 * 0 = 0; omega
    | ⟨1, _⟩ => show win0_4.index t (1 : Fin 2) * 256 + 1 * k.val = k.val; omega)

/-- The joined bias's left half is `bk`. -/
theorem bkv_left (c : Dev nD) (t : Fin cfg0.N) (e : Fin 128) (k : Fin 256) (hk : k.val = 0 + e.val) :
    (iblk m c 4 t : Vec F S1x256 .f32) (ix2 (0 : Fin 1) k) = m ((c : Thread nD τ).loc main_arg4) (ix1 e) := by
  show V m c main_call0_v2 (((cfg0.win 4).blk t).view.emb (ix2 (0 : Fin 1) k)) = _
  rw [bkv_emb, V_bkv]
  refine (shapeCast_a_1a_apply _ _ (0 : Fin 1) k).trans ?_
  refine concatenate_pair_apply_left (s₁ := S128) (s₂ := S128) (0 : Fin 1) _ _ _ (ix1 k) rfl (ix1 e) fun b => ?_
  match b with
  | ⟨0, _⟩ => show e.val = k.val; omega

/-- The joined bias's right half is `bv`. -/
theorem bkv_right (c : Dev nD) (t : Fin cfg0.N) (e : Fin 128) (k : Fin 256) (hk : k.val = 128 + e.val) :
    (iblk m c 4 t : Vec F S1x256 .f32) (ix2 (0 : Fin 1) k) = m ((c : Thread nD τ).loc main_arg6) (ix1 e) := by
  show V m c main_call0_v2 (((cfg0.win 4).blk t).view.emb (ix2 (0 : Fin 1) k)) = _
  rw [bkv_emb, V_bkv]
  refine (shapeCast_a_1a_apply _ _ (0 : Fin 1) k).trans ?_
  refine concatenate_pair_apply_right (s₁ := S128) (s₂ := S128) (0 : Fin 1) _ _ _ (ix1 k) rfl rfl (ix1 e) (fun b hb => ?_) ?_
  · match b with
    | ⟨0, _⟩ => exact absurd rfl hb
  · show e.val + 128 = k.val; omega

end Cert.KernelIdeal.Attn

end
-- ==== Proof.Pieces.lean ====
/-
  What one run of the kernel body leaves behind, as pure terms of what it loaded.

  The body runs in one of two ways. At the first query tile of a batch it projects the whole batch onto the joined
  key/value weights, stores the two halves of the result into the two scratch buffers, and then attends; at every
  later tile of the batch it only attends, reading the scratch as the tile before left it. Each store writes a whole
  buffer, so what a buffer holds afterwards is that store's value, and a whole-buffer load after such a store reads
  the value back. The four lemmas below say this for the two scratch buffers and for the output block in both ways.
  They hold at any float instance.
-/
import proofs.«117224_j15556371546452_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Attn

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 256 rows of the batch's block of `x` that the query tile at grid coordinates `i` works on: rows
    `256·i₁ … 256·i₁ + 255`. -/
abbrev qrows (i : grid0.Coords) (x0 : Vec F S1x4096x256 .f32) : Vec F S1x256x256 .f32 :=
  View.ld x0 (Rect.unit (s := S1x4096x256) (k0_off1 i) S1x256x256.size (k0_off1_inb i))

/-- First tile of a batch: the key scratch ends at the left half of the joined projection of the batch. -/
theorem keys_first (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x128 .f32) (harg7 : arg7.IsWhole) (arg8 : Memref sig .tc .vmem S4096x128 .bf16) (harg8 : arg8.IsWhole) (arg9 : Memref sig .tc .vmem S4096x128 .bf16) (harg9 : arg9.IsWhole) (hc0 : cond0_0 i) (x0 : Vec F S1x4096x256 .f32) (x1 : Vec F S256x128 .f32) (x2 : Vec F S1x128 .f32) (x3 : Vec F S256x256 .f32) (x4 : Vec F S1x256 .f32) :
    sout0_A_0 c i arg2 harg2 arg3 harg3 arg4 harg4 arg5 harg5 arg6 harg6 arg7 harg7 arg8 harg8 arg9 harg9 hc0 x0 x1 x2 x3 x4 = k0_pay2 x0 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x256) hz2, View.ld_unit_zero (S := S1x256) hz2]

/-- First tile of a batch: the value scratch ends at the right half of the joined projection of the batch. -/
theorem values_first (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x128 .f32) (harg7 : arg7.IsWhole) (arg8 : Memref sig .tc .vmem S4096x128 .bf16) (harg8 : arg8.IsWhole) (arg9 : Memref sig .tc .vmem S4096x128 .bf16) (harg9 : arg9.IsWhole) (hc0 : cond0_0 i) (x0 : Vec F S1x4096x256 .f32) (x1 : Vec F S256x128 .f32) (x2 : Vec F S1x128 .f32) (x3 : Vec F S256x256 .f32) (x4 : Vec F S1x256 .f32) :
    sout0_A_1 c i arg2 harg2 arg3 harg3 arg4 harg4 arg5 harg5 arg6 harg6 arg7 harg7 arg8 harg8 arg9 harg9 hc0 x0 x1 x2 x3 x4 = k0_pay3 x0 x3 x4 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz2]
  simp only [View.readAt_eq_ld, harg2.read_unread, harg5.read_unread, harg6.read_unread,
    View.ld_unit_zero (S := S1x4096x256) hz3, View.ld_unit_zero (S := S256x256) hz2, View.ld_unit_zero (S := S1x256) hz2]

/-- First tile of a batch: the output block is the attention of the tile's rows over the keys and values just stored
    (the loads of the scratch read the stored projections back). -/
theorem out_first (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x128 .f32) (harg7 : arg7.IsWhole) (arg8 : Memref sig .tc .vmem S4096x128 .bf16) (harg8 : arg8.IsWhole) (arg9 : Memref sig .tc .vmem S4096x128 .bf16) (harg9 : arg9.IsWhole) (hc0 : cond0_0 i) (x0 : Vec F S1x4096x256 .f32) (x1 : Vec F S256x128 .f32) (x2 : Vec F S1x128 .f32) (x3 : Vec F S256x256 .f32) (x4 : Vec F S1x256 .f32) :
    out0_A_5 c i arg2 harg2 arg3 harg3 arg4 harg4 arg5 harg5 arg6 harg6 arg7 harg7 arg8 harg8 arg9 harg9 hc0 x0 x1 x2 x3 x4
      = k0_pay4 (qrows i x0) x1 x2 (k0_pay2 x0 x3 x4) (k0_pay3 x0 x3 x4) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3 x4)]
  unfold kernelRun0_A
  dsimp only
  sl_unfold_words
  rw [View.canon_unit_zero hz3, View.readCov_unit_zero (S := S4096x128) _ hz2, View.readCov_unit_zero (S := S4096x128) _ hz2]
  simp only [View.readAt_eq_ld, harg2.read_unread, harg3.read_unread, harg4.read_unread, harg5.read_unread, harg6.read_unread,
    View.ld_unit_zero (S := S1x4096x256) hz3, View.ld_unit_zero (S := S256x256) hz2, View.ld_unit_zero (S := S1x256) hz2,
    View.ld_unit_zero (S := S256x128) hz2, View.ld_unit_zero (S := S1x128) hz2]
  rfl

/-- A later tile of a batch: the output block is the attention of the tile's rows over whatever the two scratch
    buffers held when the body started. -/
theorem out_later (c : Dev nD) (i : grid0.Coords) (arg2 : Memref sig .tc .vmem S1x4096x256 .f32) (harg2 : arg2.IsWhole) (arg3 : Memref sig .tc .vmem S256x128 .f32) (harg3 : arg3.IsWhole) (arg4 : Memref sig .tc .vmem S1x128 .f32) (harg4 : arg4.IsWhole) (arg5 : Memref sig .tc .vmem S256x256 .f32) (harg5 : arg5.IsWhole) (arg6 : Memref sig .tc .vmem S1x256 .f32) (harg6 : arg6.IsWhole) (arg7 : Memref sig .tc .vmem S1x256x128 .f32) (harg7 : arg7.IsWhole) (arg8 : Memref sig .tc .vmem S4096x128 .bf16) (harg8 : arg8.IsWhole) (arg9 : Memref sig .tc .vmem S4096x128 .bf16) (harg9 : arg9.IsWhole) (hc0 : ¬cond0_0 i) (x0 : Vec F S1x4096x256 .f32) (x1 : Vec F S256x128 .f32) (x2 : Vec F S1x128 .f32) (x3 : Vec F S256x256 .f32) (x4 : Vec F S1x256 .f32) (xs0 xs1 : Vec F S4096x128 .bf16) :
    out0_B_5 c i arg2 harg2 arg3 harg3 arg4 harg4 arg5 harg5 arg6 harg6 arg7 harg7 arg8 harg8 arg9 harg9 hc0 x0 x1 x2 x3 x4 xs0 xs1 = k0_pay4 (qrows i x0) x1 x2 xs0 xs1 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 x4 xs0 xs1)]
  unfold kernelRun0_B
  dsimp only
  rw [View.canon_unit_zero hz3]
  simp only [View.readAt_eq_ld, harg2.read_unread, harg3.read_unread, harg4.read_unread, harg8.read_unread, harg9.read_unread,
    View.ld_unit_zero (S := S256x128) hz2, View.ld_unit_zero (S := S1x128) hz2, View.ld_unit_zero (S := S4096x128) hz2]

end Cert.KernelIdeal.Attn

end
-- ==== Proof.Batch.lean ====
/-
  The stored values at the blocks the body really finds, as rows of the specification.

  With the block of `x` the batch `b = t / 16`, the joined weights `[Wk | Wv]` and the joined bias `[bk | bv]`:
  the left half of the joined projection is the batch's key rows, the right half its value rows; and the output
  block of query tile `q = t % 16`, whatever key and value rows the scratch holds as long as they are the batch's,
  is rows `256 q … 256 q + 255` of the batch's attention.
-/
import proofs.«117224_j15556371546452_2_alg».proof.Proof.Payload
import proofs.«117224_j15556371546452_2_alg».proof.Proof.Inputs
import proofs.«117224_j15556371546452_2_alg».proof.Proof.Pieces

noncomputable section

open Idealize.ShloMosaic Idealize.ShloMosaic.TcCoe Idealize.SL.Sem

namespace Cert.KernelIdeal.Attn

open Cert.KernelIdeal Cert.KernelIdeal.Gen Idealize.ShloMosaic.ValueIdx Cert.AttnSpec

variable (m : (ℓ : Loc nD τ sig) → Buf (Elt Ideal) ℓ)

/-- The key rows of batch `b`: what the batch's first tile stores into the key scratch. -/
theorem keys_batch (c : Dev nD) (t : Fin cfg0.N) (b : Fin 4) (hb : b.val = t.val / 16) (j : Fin 4096) (e : Fin 128) :
    k0_pay2 (iblk m c 0 t) (iblk m c 3 t) (iblk m c 4 t) (ix2 j e) = proj (m ((c : Thread nD τ).loc main_arg0)) (m ((c : Thread nD τ).loc main_arg3)) (m ((c : Thread nD τ).loc main_arg4)) b j e := by
  have he : e.val < 256 := by have := e.isLt; omega
  refine (pay2_apply (iblk m c 0 t) (iblk m c 3 t) (iblk m c 4 t) j e ⟨e.val, he⟩ (Nat.zero_add _).symm).trans ?_
  exact congrArg₂ (· + ·)
    (Finset.sum_congr rfl fun d _ => congrArg₂ (· * ·) (xblk_apply m c t j d b hb) (wkv_left m c t d e ⟨e.val, he⟩ (Nat.zero_add _).symm))
    (bkv_left m c t e ⟨e.val, he⟩ (Nat.zero_add _).symm)

/-- The value rows of batch `b`: what the batch's first tile stores into the value scratch. -/
theorem values_batch (c : Dev nD) (t : Fin cfg0.N) (b : Fin 4) (hb : b.val = t.val / 16) (j : Fin 4096) (e : Fin 128) :
    k0_pay3 (iblk m c 0 t) (iblk m c 3 t) (iblk m c 4 t) (ix2 j e) = proj (m ((c : Thread nD τ).loc main_arg0)) (m ((c : Thread nD τ).loc main_arg5)) (m ((c : Thread nD τ).loc main_arg6)) b j e := by
  have he : 128 + e.val < 256 := by have := e.isLt; omega
  refine (pay3_apply (iblk m c 0 t) (iblk m c 3 t) (iblk m c 4 t) j e ⟨128 + e.val, he⟩ rfl).trans ?_
  exact congrArg₂ (· + ·)
    (Finset.sum_congr rfl fun d _ => congrArg₂ (· * ·) (xblk_apply m c t j d b hb) (wkv_right m c t d e ⟨128 + e.val, he⟩ rfl))
    (bkv_right m c t e ⟨128 + e.val, he⟩ rfl)

/-- The output block of tile `q = t % 16` of batch `b = t / 16`, over key rows `K` and value rows `V` that are
    the batch's: entry `(r, h)` is entry `(b, 256 q + r, h)` of the attention. -/
theorem tile_value (c : Dev nD) (t : Fin cfg0.N) (b : Fin 4) (hb : b.val = t.val / 16) (K V : Vec Ideal S4096x128 .bf16)
    (hK : ∀ (j : Fin 4096) (e : Fin 128), K (ix2 j e) = proj (m ((c : Thread nD τ).loc main_arg0)) (m ((c : Thread nD τ).loc main_arg3)) (m ((c : Thread nD τ).loc main_arg4)) b j e)
    (hV : ∀ (j : Fin 4096) (e : Fin 128), V (ix2 j e) = proj (m ((c : Thread nD τ).loc main_arg0)) (m ((c : Thread nD τ).loc main_arg5)) (m ((c : Thread nD τ).loc main_arg6)) b j e)
    (r : Fin 256) (h : Fin 128) (n : Fin 4096) (hn : n.val = 256 * (t.val % 16) + r.val) :
    k0_pay4 (qrows (grid0.coords t) (iblk m c 0 t)) (iblk m c 1 t) (iblk m c 2 t) K V (ix3 (0 : Fin 1) r h)
      = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b n h) := by
  refine (pay4_apply (qrows (grid0.coords t) (iblk m c 0 t)) (iblk m c 1 t) (iblk m c 2 t) K V r h).trans ?_
  have eq : lin (fun d => qrows (grid0.coords t) (iblk m c 0 t) (ix3 (0 : Fin 1) r d))
        (fun d e => (iblk m c 1 t : Vec Ideal S256x128 .f32) (ix2 d e)) (fun e => (iblk m c 2 t : Vec Ideal S1x128 .f32) (ix2 (0 : Fin 1) e))
      = proj (m ((c : Thread nD τ).loc main_arg0)) (m ((c : Thread nD τ).loc main_arg1)) (m ((c : Thread nD τ).loc main_arg2)) b n :=
    congr (congr (congrArg lin (funext fun d => qrows_apply m c t r d b hb n hn))
      (funext fun d => funext fun e => wq_apply m c t d e)) (funext fun e => bq_apply m c t e)
  exact congrFun (congr (congr (congrArg attend eq) (funext fun j => funext fun e => hK j e))
    (funext fun j => funext fun e => hV j e)) h

end Cert.KernelIdeal.Attn

end
-- ==== Proof.Carried.lean ====
/-
  What the scratch carries from point to point, and what every point leaves in the output block.

  The 64 grid points run batch by batch, sixteen query tiles each. The first tile of a batch stores the batch's key
  and value rows into the two scratch buffers; the fifteen tiles after it store nothing there. So after ANY point
  `n` the scratch holds the key and value rows of batch `n / 16` — by induction on the point: a first tile by what
  it stores, a later tile by what the point before left, which is of the same batch. Hence every point, first tile or
  not, leaves in the output block its 256 rows of the batch's attention.
-/
import proofs.«117224_j15556371546452_2_alg».proof.Proof.Batch

noncomputable section

open Idealize.ShloMosaic Idealize.ShloMosaic.TcCoe Idealize.SL.Sem

namespace Cert.KernelIdeal.Attn

open Cert.KernelIdeal Cert.KernelIdeal.Gen Idealize.ShloMosaic.ValueIdx Cert.AttnSpec

variable (m : (ℓ : Loc nD τ sig) → Buf (Elt Ideal) ℓ)

/-- After the first tile of a batch the scratch holds the batch's key and value rows. -/
theorem scratch_first (c : Dev nD) (t : Fin cfg0.N) (h0 : t.val % 16 = 0) (b : Fin 4) (hb : b.val = t.val / 16)
    (j : Fin 4096) (e : Fin 128) :
    (outsAt0 m c t.val t.isLt).2.1 (ix2 j e) = proj (m ((c : Thread nD τ).loc main_arg0)) (m ((c : Thread nD τ).loc main_arg3)) (m ((c : Thread nD τ).loc main_arg4)) b j e
      ∧ (outsAt0 m c t.val t.isLt).2.2 (ix2 j e) = proj (m ((c : Thread nD τ).loc main_arg0)) (m ((c : Thread nD τ).loc main_arg5)) (m ((c : Thread nD τ).loc main_arg6)) b j e := by
  have hk : (outsAt0 m c t.val t.isLt).2.1 = k0_pay2 (iblk m c 0 t) (iblk m c 3 t) (iblk m c 4 t) := by
    rw [outsAt0_A m c t h0]
    dsimp only
    exact keys_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  have hv : (outsAt0 m c t.val t.isLt).2.2 = k0_pay3 (iblk m c 0 t) (iblk m c 3 t) (iblk m c 4 t) := by
    rw [outsAt0_A m c t h0]
    dsimp only
    exact values_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
  exact ⟨(congrFun hk (ix2 j e)).trans (keys_batch m c t b hb j e), (congrFun hv (ix2 j e)).trans (values_batch m c t b hb j e)⟩

/-- A later tile leaves the scratch as the point before left it. -/
theorem scratch_later (c : Dev nD) (t : Fin cfg0.N) (h0 : ¬t.val % 16 = 0) :
    (outsAt0 m c t.val t.isLt).2.1 = (outsAt0 m c (t.val - 1) (Nat.lt_of_le_of_lt (Nat.sub_le _ _) t.isLt)).2.1
      ∧ (outsAt0 m c t.val t.isLt).2.2 = (outsAt0 m c (t.val - 1) (Nat.lt_of_le_of_lt (Nat.sub_le _ _) t.isLt)).2.2 := by
  rw [outsAt0_B m c t h0]
  dsimp only [sout0_B_0, sout0_B_1]
  exact ⟨rfl, rfl⟩

/-- After any point `n` the scratch holds the key and value rows of batch `n / 16`. -/
theorem scratch_eq (c : Dev nD) : ∀ (n : ℕ) (h : n < cfg0.N) (b : Fin 4) (hb : b.val = n / 16) (j : Fin 4096) (e : Fin 128),
    (outsAt0 m c n h).2.1 (ix2 j e) = proj (m ((c : Thread nD τ).loc main_arg0)) (m ((c : Thread nD τ).loc main_arg3)) (m ((c : Thread nD τ).loc main_arg4)) b j e
      ∧ (outsAt0 m c n h).2.2 (ix2 j e) = proj (m ((c : Thread nD τ).loc main_arg0)) (m ((c : Thread nD τ).loc main_arg5)) (m ((c : Thread nD τ).loc main_arg6)) b j e
  | 0, h, b, hb, j, e => scratch_first m c ⟨0, h⟩ rfl b hb j e
  | n + 1, h, b, hb, j, e => by
    by_cases h0 : (n + 1) % 16 = 0
    · exact scratch_first m c ⟨n + 1, h⟩ h0 b hb j e
    · have hl := scratch_later m c ⟨n + 1, h⟩ h0
      have ih := scratch_eq c n (Nat.lt_of_succ_lt h) b (by omega) j e
      exact ⟨(congrFun hl.1 (ix2 j e)).trans ih.1, (congrFun hl.2 (ix2 j e)).trans ih.2⟩

/-- What point `t` leaves in the output block: entry `(r, h)` is entry `(t / 16, 256 (t % 16) + r, h)` of the
    attention. -/
theorem out_value (c : Dev nD) (t : Fin cfg0.N) (b : Fin 4) (hb : b.val = t.val / 16) (r : Fin 256) (h : Fin 128)
    (n : Fin 4096) (hn : n.val = 256 * (t.val % 16) + r.val) :
    (outsAt0 m c t.val t.isLt).1 (ix3 (0 : Fin 1) r h) = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix3 b n h) := by
  by_cases h0 : t.val % 16 = 0
  · have ho : (outsAt0 m c t.val t.isLt).1
        = k0_pay4 (qrows (grid0.coords t) (iblk m c 0 t)) (iblk m c 1 t) (iblk m c 2 t)
            (k0_pay2 (iblk m c 0 t) (iblk m c 3 t) (iblk m c 4 t)) (k0_pay3 (iblk m c 0 t) (iblk m c 3 t) (iblk m c 4 t)) := by
      rw [outsAt0_A m c t h0]
      dsimp only
      exact out_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t) (iblk m c 4 t)
    exact (congrFun ho (ix3 (0 : Fin 1) r h)).trans
      (tile_value m c t b hb _ _ (keys_batch m c t b hb) (values_batch m c t b hb) r h n hn)
  · have hlt : t.val - 1 < cfg0.N := Nat.lt_of_le_of_lt (Nat.sub_le _ _) t.isLt
    have ho : (outsAt0 m c t.val t.isLt).1
        = k0_pay4 (qrows (grid0.coords t) (iblk m c 0 t)) (iblk m c 1 t) (iblk m c 2 t)
            (outsAt0 m c (t.val - 1) hlt).2.1 (outsAt0 m c (t.val - 1) hlt).2.2 := by
      rw [outsAt0_B m c t h0]
      dsimp only
      exact out_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (iblk m c 4 t)
        (outsAt0 m c (t.val - 1) hlt).2.1 (outsAt0 m c (t.val - 1) hlt).2.2
    have hb' : b.val = (t.val - 1) / 16 := by omega
    exact (congrFun ho (ix3 (0 : Fin 1) r h)).trans
      (tile_value m c t b hb _ _ (fun j e => (scratch_eq m c (t.val - 1) hlt b hb' j e).1)
        (fun j e => (scratch_eq m c (t.val - 1) hlt b hb' j e).2) r h n hn)

end Cert.KernelIdeal.Attn

end
-- ==== Proof.Result.lean ====
/-
  From the output blocks to the result array.

  Point `t` writes back the block of the result at batch `t / 16`, rows `256 (t % 16) … + 255`; by the lemma on
  what every point leaves, that block is the same block of the attention. The 64 blocks tile the 4 × 4096 × 128
  array — entry `(b, n, h)` lies in the block of point `16 b + n / 256` — so after the run the result array is the
  attention of the arguments, and the arguments are as they were.
-/
import proofs.«117224_j15556371546452_2_alg».proof.Proof.Carried
import proofs.«117224_j15556371546452_2_alg».proof.Proof.Gen.KernelIdeal.Value

noncomputable section

open Idealize.ShloMosaic Idealize.ShloMosaic.TcCoe Idealize.SL.Sem
open Idealize.ShloMosaic.Pipeline (Dat)

namespace Cert.KernelIdeal.Attn

open Cert.KernelIdeal Cert.KernelIdeal.Gen Idealize.ShloMosaic.ValueIdx Cert.AttnSpec

variable (m : (ℓ : Loc nD τ sig) → Buf (Elt Ideal) ℓ) (ρ : Dev nD → PrngReg)

/-- Where entry `(r, h)` of point `t`'s output block sits in the result array. -/
theorem out_emb (t : Fin cfg0.N) (r : Fin 256) (h : Fin 128) (b : Fin 4) (hb : b.val = t.val / 16)
    (n : Fin 4096) (hn : n.val = 256 * (t.val % 16) + r.val) :
    ((cfg0.win 5).blk t).view.emb (ix3 (0 : Fin 1) r h) = ix3 b n h := by
  obtain ⟨-, -, -, -, -, -, -, -, -, -, -, e0, e1, e2⟩ := idx_facts t
  exact funext fun a => Fin.ext (by
    match a with
    | ⟨0, _⟩ => show win0_5.index t (0 : Fin 3) * 1 + 1 * 0 = b.val; omega
    | ⟨1, _⟩ => show win0_5.index t (1 : Fin 3) * 256 + 1 * r.val = n.val; omega
    | ⟨2, _⟩ => show win0_5.index t (2 : Fin 3) * 128 + 1 * h.val = h.val; omega)

/-- What point `t` writes back is its block of the attention. -/
theorem flushed_eq (c : Dev nD) (t : Fin cfg0.N) :
    (dats m 0 c).flushed 5 t = ((cfg0.win 5).blk t).view.read (Elt Ideal) (attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed5]
  have hN : cfg0.N = 64 := N_0
  have hq : t.val / 16 < 4 := by have := t.isLt; omega
  funext y
  obtain ⟨u, r, h, rfl⟩ : ∃ (u : Fin 1) (r : Fin 256) (h : Fin 128), y = ix3 u r h := ⟨y 0, y 1, y 2, eq_ix3 y⟩
  obtain rfl : u = 0 := Subsingleton.elim _ _
  have hn' : 256 * (t.val % 16) + r.val < 4096 := by have := r.isLt; omega
  show (outsAt0 m c t.val t.isLt).1 (ix3 (0 : Fin 1) r h)
    = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 5).blk t).view.emb (ix3 (0 : Fin 1) r h))
  rw [out_emb t r h ⟨t.val / 16, hq⟩ rfl ⟨256 * (t.val % 16) + r.val, hn'⟩ rfl]
  exact out_value m c t ⟨t.val / 16, hq⟩ rfl r h ⟨256 * (t.val % 16) + r.val, hn'⟩ rfl

/-- An index of the result array is in point `t`'s block iff each coordinate is in the block's range on its axis. -/
theorem mem_blk (t : Fin cfg0.N) (i : S4x4096x128.Idx) :
    i ∈ ((cfg0.win 5).blk t).view.set ↔ ∀ a : Fin 3, win0_5.index t a * S1x256x128.size a ≤ (i a).val
      ∧ (i a).val < win0_5.index t a * S1x256x128.size a + S1x256x128.size a := by
  show i ∈ ((View.whole main_v0).slice (win0_5.rect t)).set ↔ _
  rw [View.set_slice_whole, Rect.mem_set_unit]
  exact Iff.rfl

/-- Every entry of the result array is in some point's block. -/
theorem cover (i : S4x4096x128.Idx) :
    ∃ t : Fin cfg0.N, (cfg0.win 5).flush t = true ∧ i ∈ ((cfg0.win 5).blk t).view.set := by
  have hN : cfg0.N = 64 := N_0
  have hi0 : (i 0).val < 4 := (i 0).isLt
  have hi1 : (i 1).val < 4096 := (i 1).isLt
  have hi2 : (i 2).val < 128 := (i 2).isLt
  have ht : 16 * (i 0).val + (i 1).val / 256 < cfg0.N := by omega
  obtain ⟨-, -, -, -, -, -, -, -, -, -, -, e0, e1, e2⟩ := idx_facts ⟨16 * (i 0).val + (i 1).val / 256, ht⟩
  have e0' : win0_5.index ⟨16 * (i 0).val + (i 1).val / 256, ht⟩ (0 : Fin 3) = (16 * (i 0).val + (i 1).val / 256) / 16 := e0
  have e1' : win0_5.index ⟨16 * (i 0).val + (i 1).val / 256, ht⟩ (1 : Fin 3) = (16 * (i 0).val + (i 1).val / 256) % 16 := e1
  refine ⟨⟨16 * (i 0).val + (i 1).val / 256, ht⟩, flush0_5 _, ?_⟩
  rw [mem_blk]
  intro a
  match a with
  | ⟨0, _⟩ =>
    show win0_5.index ⟨16 * (i 0).val + (i 1).val / 256, ht⟩ (0 : Fin 3) * 1 ≤ (i 0).val
      ∧ (i 0).val < win0_5.index ⟨16 * (i 0).val + (i 1).val / 256, ht⟩ (0 : Fin 3) * 1 + 1
    omega
  | ⟨1, _⟩ =>
    show win0_5.index ⟨16 * (i 0).val + (i 1).val / 256, ht⟩ (1 : Fin 3) * 256 ≤ (i 1).val
      ∧ (i 1).val < win0_5.index ⟨16 * (i 0).val + (i 1).val / 256, ht⟩ (1 : Fin 3) * 256 + 256
    omega
  | ⟨2, _⟩ =>
    show win0_5.index ⟨16 * (i 0).val + (i 1).val / 256, ht⟩ (2 : Fin 3) * 128 ≤ (i 2).val
      ∧ (i 2).val < win0_5.index ⟨16 * (i 0).val + (i 1).val / 256, ht⟩ (2 : Fin 3) * 128 + 128
    omega

/-- After the run the result array is the attention of the arguments. -/
theorem final (c : Dev nD) : (dats m 0 c).arrAt 5 cfg0.N = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 5 (attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed_eq m c t) cover

/-- The kernel's run: every weakly fair execution ends with the result array at the attention of the arguments and the
    arguments unchanged. -/
theorem run : θ_run defs (onTc (τ := τ) (main (F := Ideal))) ⟨m, fun _ => 0, ρ⟩ fun r => ∀ c : Dev nD,
      r.2.mem ((c : Thread nD τ).loc main_v0) = attention (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Attn

end
-- ==== Proof.lean ====
/-
  The certificate of a fused single-head self-attention kernel against its plain reference.

  The kernel runs a grid of 4 batches × 16 query tiles. At the first tile of a batch it projects the whole batch onto
  the joined key/value weights and keeps the two halves in scratch memory for the batch's other fifteen tiles; every
  tile projects its 256 query rows, scores them against the kept keys, takes the softmax of each score row and mixes
  the kept values. The reference computes the three projections, the scores, the softmax and the mix on whole arrays.
  Over the extended reals both are one expression, entry by entry (`Cert.AttnSpec.attention`): a matrix product is
  the sum of products whatever its tiling, the joined projection read in halves is the two projections, changes of
  float format are the identity, and the reference's extra `max (−∞, ·)` on the row maximum changes nothing. No law
  of arithmetic beyond that is used, so the precondition is never opened.

  The three frames are the generated ones (the reference's is its generated run with the result dropped); the ideal
  pass rewrote nothing, so `preserves` is trivial.
-/
import proofs.«117224_j15556371546452_2_alg».proof.Defs
import proofs.«117224_j15556371546452_2_alg».proof.Proof.Gen.Kernel
import proofs.«117224_j15556371546452_2_alg».proof.Proof.Gen.Kernel.Frame
import proofs.«117224_j15556371546452_2_alg».proof.Proof.Gen.KernelIdeal
import proofs.«117224_j15556371546452_2_alg».proof.Proof.Gen.KernelIdeal.Frame
import proofs.«117224_j15556371546452_2_alg».proof.Proof.Gen.KernelIdeal.Value
import proofs.«117224_j15556371546452_2_alg».proof.Proof.Gen.ReferenceIdeal
import proofs.«117224_j15556371546452_2_alg».proof.Proof.Gen.ReferenceIdeal.Run
import proofs.«117224_j15556371546452_2_alg».proof.Proof.Gen.ReferenceIdeal.Read
import proofs.«117224_j15556371546452_2_alg».proof.Proof.Gen.Pre_finite_inputs
import proofs.«117224_j15556371546452_2_alg».proof.Proof.RefAttn
import proofs.«117224_j15556371546452_2_alg».proof.Proof.Result

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.Value.run (F := Ideal) m ρ)

/-- Both programs end with the result array at the attention of the arguments: the kernel by its blocks
    (`Cert.KernelIdeal.Attn.run`), the reference by its stages (`Cert.ReferenceIdeal.RefAttn.result_eq`), from arguments
    that agree. -/
theorem algebraic : Cert.algebraic_KernelIdeal_ReferenceIdeal := by
  intro m ρ m' ρ' _ hagree
  refine ⟨fun c => Cert.AttnSpec.attention (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefAttn.result_eq,
    (hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
